-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512 : Shape := ⟨3, ![4, 512, 512]⟩
abbrev S4x100x512 : Shape := ⟨3, ![4, 100, 512]⟩
abbrev S4x1 : Shape := ⟨2, ![4, 1]⟩
abbrev S512x1025 : Shape := ⟨2, ![512, 1025]⟩
abbrev S1025 : Shape := ⟨1, ![1025]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel
  bcast_S_S4x100x512 : S_.BroadcastsInDim S4x100x512 (![] : Fin 0 → Fin S4x100x512.rank)
  reducesTo_S4x100x512_S_d0_1_2 : S4x100x512.ReducesTo [0, 1, 2] S_
  bcast_S_S512x1025 : S_.BroadcastsInDim S512x1025 (![] : Fin 0 → Fin S512x1025.rank)
  reducesTo_S512x1025_S_d0_1 : S512x1025.ReducesTo [0, 1] S_
  bcast_S_S1025 : S_.BroadcastsInDim S1025 (![] : Fin 0 → Fin S1025.rank)
  reducesTo_S1025_S_d0 : S1025.ReducesTo [0] S_

variable [Facts]

def fn_part1 {F : FTy → Type} [FloatOps F] (main_v13 : IVec S_ 1) (main_v16 : IVec S1025 1) : IVec S_ 1 :=
  let main_c_5 : IVec S_ 1 := constantI S_ 1 1#1
  let main_v17 : IVec S_ 1 := (fun x v => Host.reduce IntOp.andi x v reducesTo_S1025_S_d0 h_S_) main_v16 main_c_5
  let main_v18 : IVec S_ 1 := andi main_v13 main_v17
  main_v18

def fn {F : FTy → Type} [FloatOps F] (main_arg0 : FVec F S4x512x512 .f32) (main_arg1 : FVec F S4x100x512 .f32) (main_arg2 : IVec S4x1 32) (main_arg3 : FVec F S512x1025 .f32) (main_arg4 : FVec F S1025 .f32) : IVec S_ 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_c : IVec S_ 1 := constantI S_ 1 1#1
  let main_v3 : IVec S_ 1 := (fun x v => Host.reduce IntOp.andi x v reducesTo_S4x512x512_S_d0_1_2 h_S_) main_v2 main_c
  let main_v4 : FVec F S4x100x512 .f32 := Host.absf main_arg1
  let main_cst_0 : FVec F S_ .f32 := constant S_ .f32 0x7F800000#32
  let main_v5 : FVec F S4x100x512 .f32 := broadcastInDim S4x100x512 ![] bcast_S_S4x100x512 main_cst_0
  let main_v6 : IVec S4x100x512 1 := cmpf .olt main_v4 main_v5
  let main_c_1 : IVec S_ 1 := constantI S_ 1 1#1
  let main_v7 : IVec S_ 1 := (fun x v => Host.reduce IntOp.andi x v reducesTo_S4x100x512_S_d0_1_2 h_S_) main_v6 main_c_1
  let main_v8 : IVec S_ 1 := andi main_v3 main_v7
  let main_v9 : FVec F S512x1025 .f32 := Host.absf main_arg3
  let main_cst_2 : FVec F S_ .f32 := constant S_ .f32 0x7F800000#32
  let main_v10 : FVec F S512x1025 .f32 := broadcastInDim S512x1025 ![] bcast_S_S512x1025 main_cst_2
  let main_v11 : IVec S512x1025 1 := cmpf .olt main_v9 main_v10
  let main_c_3 : IVec S_ 1 := constantI S_ 1 1#1
  let main_v12 : IVec S_ 1 := (fun x v => Host.reduce IntOp.andi x v reducesTo_S512x1025_S_d0_1 h_S_) main_v11 main_c_3
  let main_v13 : IVec S_ 1 := andi main_v8 main_v12
  let main_v14 : FVec F S1025 .f32 := Host.absf main_arg4
  let main_cst_4 : FVec F S_ .f32 := constant S_ .f32 0x7F800000#32
  let main_v15 : FVec F S1025 .f32 := broadcastInDim S1025 ![] bcast_S_S1025 main_cst_4
  let main_v16 : IVec S1025 1 := cmpf .olt main_v14 main_v15
  fn_part1 (F := F) main_v13 main_v16
-- ==== Kernel.lean ====
abbrev S4x512x512 : Shape := ⟨3, ![4, 512, 512]⟩
abbrev S4x100x512 : Shape := ⟨3, ![4, 100, 512]⟩
abbrev S4x1 : Shape := ⟨2, ![4, 1]⟩
abbrev S512x1025 : Shape := ⟨2, ![512, 1025]⟩
abbrev S1025 : Shape := ⟨1, ![1025]⟩
abbrev S4x512x100x1025 : Shape := ⟨4, ![4, 512, 100, 1025]⟩
abbrev S1x16x512 : Shape := ⟨3, ![1, 16, 512]⟩
abbrev S1x100x512 : Shape := ⟨3, ![1, 100, 512]⟩
abbrev S1x16x100x1025 : Shape := ⟨4, ![1, 16, 100, 1025]⟩
abbrev S16x512 : Shape := ⟨2, ![16, 512]⟩
abbrev S100x512 : Shape := ⟨2, ![100, 512]⟩
abbrev S16x1x512 : Shape := ⟨3, ![16, 1, 512]⟩
abbrev S16x100x512 : Shape := ⟨3, ![16, 100, 512]⟩
abbrev S1600x512 : Shape := ⟨2, ![1600, 512]⟩
abbrev S1600x1025 : Shape := ⟨2, ![1600, 1025]⟩
abbrev S1x1025 : Shape := ⟨2, ![1, 1025]⟩
abbrev S16x100x1025 : Shape := ⟨3, ![16, 100, 1025]⟩

abbrev nBuf : Space → Nat
  | .hbm => 7
  | .vmem => 8
  | .smem => 0
  | _ => 0

abbrev bufTy : (tb : Table) → Fin (tcTables nBuf tb) → BufTy
  | .hbm, ⟨0, _⟩ => ⟨S4x512x512, .f32⟩
  | .hbm, ⟨1, _⟩ => ⟨S4x100x512, .f32⟩
  | .hbm, ⟨2, _⟩ => ⟨S4x1, .i32⟩
  | .hbm, ⟨3, _⟩ => ⟨S512x1025, .f32⟩
  | .hbm, ⟨4, _⟩ => ⟨S1025, .f32⟩
  | .hbm, ⟨5, _⟩ => ⟨S512x1025, .bf16⟩
  | .hbm, ⟨6, _⟩ => ⟨S4x512x100x1025, .f32⟩
  | .local _ .vmem, ⟨0, _⟩ => ⟨S1x16x512, .f32⟩
  | .local _ .vmem, ⟨1, _⟩ => ⟨S1x16x512, .f32⟩
  | .local _ .vmem, ⟨2, _⟩ => ⟨S1x100x512, .f32⟩
  | .local _ .vmem, ⟨3, _⟩ => ⟨S1x100x512, .f32⟩
  | .local _ .vmem, ⟨4, _⟩ => ⟨S512x1025, .bf16⟩
  | .local _ .vmem, ⟨5, _⟩ => ⟨S1025, .f32⟩
  | .local _ .vmem, ⟨6, _⟩ => ⟨S1x16x100x1025, .f32⟩
  | .local _ .vmem, ⟨7, _⟩ => ⟨S1x16x100x1025, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x100x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1025 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1025 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x100x1025 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x100x512_S1x100x512_0_0_0 : ∀ a, (![0, 0, 0] : Fin 3 → Nat) a + S1x100x512.size a ≤ S1x100x512.size a
  h_S1x100x512 : 0 < S1x100x512.numel
  shapeCasts_S1x100x512_S100x512 : S1x100x512.ShapeCasts S100x512
  shapeCasts_S16x512_S16x1x512 : S16x512.ShapeCasts S16x1x512
  shapeCasts_S100x512_S1x100x512 : S100x512.ShapeCasts S1x100x512
  broadcasts_S16x1x512_S16x100x512 : S16x1x512.Broadcasts S16x100x512
  broadcasts_S1x100x512_S16x100x512 : S1x100x512.Broadcasts S16x100x512
  shapeCasts_S16x100x512_S1600x512 : S16x100x512.ShapeCasts S1600x512
  inb_S512x1025_S512x1025_0_0 : ∀ a, (![0, 0] : Fin 2 → Nat) a + S512x1025.size a ≤ S512x1025.size a
  h_S512x1025 : 0 < S512x1025.numel
  shapeCasts_S512x1025_S512x1025 : S512x1025.ShapeCasts S512x1025
  inb_S1025_S1025_0 : ∀ a, (![0] : Fin 1 → Nat) a + S1025.size a ≤ S1025.size a
  h_S1025 : 0 < S1025.numel
  shapeCasts_S1025_S1x1025 : S1025.ShapeCasts S1x1025
  broadcasts_S1x1025_S1600x1025 : S1x1025.Broadcasts S1600x1025
  shapeCasts_S1600x1025_S16x100x1025 : S1600x1025.ShapeCasts S16x100x1025
  inb_S1x16x100x1025_S1x16x100x1025_0_0_0_0 : ∀ a, (![0, 0, 0, 0] : Fin 4 → Nat) a + S1x16x100x1025.size a ≤ S1x16x100x1025.size a
  h_S1x16x100x1025 : 0 < S1x16x100x1025.numel
  shapeCasts_S1x16x100x1025_S16x100x1025 : S1x16x100x1025.ShapeCasts S16x100x1025
  shapeCasts_S16x100x1025_S1x16x100x1025 : S16x100x1025.ShapeCasts S1x16x100x1025
  dot_S1600x512_S512x1025_S1600x1025_1_0_0_1_n_n_wf : DotDims.WF S1600x512 S512x1025 S1600x1025 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S4x512x512.size a
  hwx0_0 : ∀ i : grid0.Coords, EltTy.bits .f32 = 32 ∨ (Rect.block (s := S4x512x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x100x512.size a ≤ S4x100x512.size a
  hwx0_1 : ∀ i : grid0.Coords, EltTy.bits .f32 = 32 ∨ (Rect.block (s := S4x100x512) S1x100x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1025.size a ≤ S512x1025.size a
  hwx0_2 : ∀ i : grid0.Coords, EltTy.bits .bf16 = 32 ∨ (Rect.block (s := S512x1025) S512x1025.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1025.size a ≤ S1025.size a
  hwx0_3 : ∀ i : grid0.Coords, EltTy.bits .f32 = 32 ∨ (Rect.block (s := S1025) S1025.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x100x1025.size a ≤ S4x512x100x1025.size a
  hwx0_4 : ∀ i : grid0.Coords, EltTy.bits .f32 = 32 ∨ (Rect.block (s := S4x512x100x1025) S1x16x100x1025.size (cc0_transform_4 i) (hinb0_4 i)).WholeWords (EltTy.packing .f32)

variable [Facts₀]

def dot_S1600x512_S512x1025_S1600x1025_1_0_0_1_n_n : DotDims S1600x512 S512x1025 S1600x1025 where
  lhsContracting := [1]
  rhsContracting := [0]
  lhsNonContracting := [0]
  rhsNonContracting := [1]
  lhsBatch := []
  rhsBatch := []
  wf := dot_S1600x512_S512x1025_S1600x1025_1_0_0_1_n_n_wf

abbrev win0_0 : Pipeline.Window sig grid0 :=
  Pipeline.Window.ofSpec (Memref.whole main_arg0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x100x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1025.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1025.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16x100x1025.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x512 : Shape := ⟨3, ![4, 512, 512]⟩
abbrev S4x100x512 : Shape := ⟨3, ![4, 100, 512]⟩
abbrev S4x1 : Shape := ⟨2, ![4, 1]⟩
abbrev S512x1025 : Shape := ⟨2, ![512, 1025]⟩
abbrev S1025 : Shape := ⟨1, ![1025]⟩
abbrev S4x512x1x512 : Shape := ⟨4, ![4, 512, 1, 512]⟩
abbrev S4x1x100x512 : Shape := ⟨4, ![4, 1, 100, 512]⟩
abbrev S4x512x100x512 : Shape := ⟨4, ![4, 512, 100, 512]⟩
abbrev S4x512x100x1025 : Shape := ⟨4, ![4, 512, 100, 1025]⟩
abbrev S1x1x1x1025 : Shape := ⟨4, ![1, 1, 1, 1025]⟩

abbrev nBuf : Space → Nat
  | .hbm => 15
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4x100x512, .f32⟩
  | .hbm, ⟨2, _⟩ => ⟨S4x1, .i32⟩
  | .hbm, ⟨3, _⟩ => ⟨S512x1025, .f32⟩
  | .hbm, ⟨4, _⟩ => ⟨S1025, .f32⟩
  | .hbm, ⟨5, _⟩ => ⟨S4x512x1x512, .f32⟩
  | .hbm, ⟨6, _⟩ => ⟨S4x1x100x512, .f32⟩
  | .hbm, ⟨7, _⟩ => ⟨S4x512x100x512, .f32⟩
  | .hbm, ⟨8, _⟩ => ⟨S4x512x100x512, .f32⟩
  | .hbm, ⟨9, _⟩ => ⟨S4x512x100x512, .f32⟩
  | .hbm, ⟨10, _⟩ => ⟨S4x512x100x512, .f32⟩
  | .hbm, ⟨11, _⟩ => ⟨S4x512x100x1025, .f32⟩
  | .hbm, ⟨12, _⟩ => ⟨S1x1x1x1025, .f32⟩
  | .hbm, ⟨13, _⟩ => ⟨S4x512x100x1025, .f32⟩
  | .hbm, ⟨14, _⟩ => ⟨S4x512x100x1025, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S4x512x512_S4x512x1x512_0_1_3 : S4x512x512.BroadcastsInDim S4x512x1x512 (![0, 1, 3] : Fin 3 → Fin S4x512x1x512.rank)
  bcast_S4x100x512_S4x1x100x512_0_2_3 : S4x100x512.BroadcastsInDim S4x1x100x512 (![0, 2, 3] : Fin 3 → Fin S4x1x100x512.rank)
  bcast_S4x512x1x512_S4x512x100x512_0_1_2_3 : S4x512x1x512.BroadcastsInDim S4x512x100x512 (![0, 1, 2, 3] : Fin 4 → Fin S4x512x100x512.rank)
  bcast_S4x1x100x512_S4x512x100x512_0_1_2_3 : S4x1x100x512.BroadcastsInDim S4x512x100x512 (![0, 1, 2, 3] : Fin 4 → Fin S4x512x100x512.rank)
  bcast_S1025_S1x1x1x1025_3 : S1025.BroadcastsInDim S1x1x1x1025 (![3] : Fin 1 → Fin S1x1x1x1025.rank)
  bcast_S1x1x1x1025_S4x512x100x1025_0_1_2_3 : S1x1x1x1025.BroadcastsInDim S4x512x100x1025 (![0, 1, 2, 3] : Fin 4 → Fin S4x512x100x1025.rank)
  dot_S4x512x100x512_S512x1025_S4x512x100x1025_3_0_012_1_n_n_wf : DotDims.WF S4x512x100x512 S512x1025 S4x512x100x1025 [3] [0] [0, 1, 2] [1] [] []

variable [Facts₀]

def dot_S4x512x100x512_S512x1025_S4x512x100x1025_3_0_012_1_n_n : DotDims S4x512x100x512 S512x1025 S4x512x100x1025 where
  lhsContracting := [3]
  rhsContracting := [0]
  lhsNonContracting := [0, 1, 2]
  rhsNonContracting := [1]
  lhsBatch := []
  rhsBatch := []
  wf := dot_S4x512x100x512_S512x1025_S4x512x100x1025_3_0_012_1_n_n_wf

class Facts : Prop extends Facts₀ where

variable [Facts]
-- ==== Proof.JointSpec.lean ====
/-
  The joint network's output as one function of its four argument arrays, index by index:

      out[b, t, u, v] = (∑ h, tanh (trans[b, t, h] + pred[b, u, h]) · W[h, v]) + bias[v]

  over the extended reals, with `tanh` the extended-real hyperbolic tangent (−1 at −∞, 1 at +∞).  The sum runs over
  the hidden axis (512 entries) in its natural order; both programs are shown to end at exactly this function.
-/
import Idealize.ShloMosaic.PureOps.Ideal
import Idealize.ShloMosaic.Lib.ValueIdx

noncomputable section

namespace Cert.Joint

open Idealize.ShloMosaic Idealize.ShloMosaic.ValueIdx

/-- The joint output at `(b, t, u, v)`: the hidden-axis inner product of `tanh (trans[b, t, ·] + pred[b, u, ·])` with
    column `v` of `W`, plus `bias[v]`. -/
def joint (trans : (⟨3, ![4, 512, 512]⟩ : Shape).Idx → EReal) (pred : (⟨3, ![4, 100, 512]⟩ : Shape).Idx → EReal)
    (W : (⟨2, ![512, 1025]⟩ : Shape).Idx → EReal) (bias : (⟨1, ![1025]⟩ : Shape).Idx → EReal) :
    (⟨4, ![4, 512, 100, 1025]⟩ : Shape).Idx → EReal :=
  fun i => (∑ h : Fin 512, Ideal.tanh (trans (ix3 (i 0 : Fin 4) (i 1 : Fin 512) h) + pred (ix3 (i 0 : Fin 4) (i 2 : Fin 100) h))
      * W (ix2 h (i 3 : Fin 1025))) + bias (ix1 (i 3 : Fin 1025))

end Cert.Joint

end
-- ==== Proof.JointRef.lean ====
/-
  The reference computes the joint function.  Its program broadcasts `trans` along the `u` axis and `pred` along the
  `t` axis, adds, applies `tanh`, contracts the hidden axis against `W` and adds the broadcast bias.  Read at an index
  `(b, t, u, v)`, the broadcasts select `trans[b, t, h]`, `pred[b, u, h]` and `bias[v]`, and the contraction is the
  sum over `h` of the products with `W[h, v]`: term for term the joint function.
-/
import proofs.«161228_j8555574854403_1_alg».proof.Proof.Gen.ReferenceIdeal.Read
import proofs.«161228_j8555574854403_1_alg».proof.Proof.JointSpec

noncomputable section

namespace Cert.ReferenceIdeal.JointRef

open Cert.ReferenceIdeal Cert.ReferenceIdeal.Gen Cert.ReferenceIdeal.Read Idealize.ShloMosaic Idealize.ShloMosaic.ValueIdx Cert.Joint

/-- Through the two broadcasts, the left factor of the contraction at `(b, t, u, ·, h)` reads `trans` at `(b, t, h)`. -/
theorem idx_trans (i : S4x512x100x1025.Idx) (k : Fin 512) :
    idx_main_v0 (idx_main_v2 (lidx_main_v6 i k)) = ix3 (i 0 : Fin 4) (i 1 : Fin 512) k :=
  funext fun a => by match a with | ⟨0, _⟩ => rfl | ⟨1, _⟩ => rfl | ⟨2, _⟩ => rfl

/-- … and `pred` at `(b, u, h)`. -/
theorem idx_pred (i : S4x512x100x1025.Idx) (k : Fin 512) :
    idx_main_v1 (idx_main_v3 (lidx_main_v6 i k)) = ix3 (i 0 : Fin 4) (i 2 : Fin 100) k :=
  funext fun a => by match a with | ⟨0, _⟩ => rfl | ⟨1, _⟩ => rfl | ⟨2, _⟩ => rfl

/-- The right factor of the contraction is `W` at `(h, v)`. -/
theorem idx_w (i : S4x512x100x1025.Idx) (k : Fin 512) : ridx_main_v6 i k = ix2 k (i 3 : Fin 1025) :=
  funext fun a => by match a with | ⟨0, _⟩ => rfl | ⟨1, _⟩ => rfl

/-- Through its two broadcasts the bias is read at `v`. -/
theorem idx_bias (i : S4x512x100x1025.Idx) : idx_main_v7 (idx_main_v8 i) = ix1 (i 3 : Fin 1025) :=
  funext fun a => by match a with | ⟨0, _⟩ => rfl

/-- The reference's result, as a function of its arguments, is the joint function. -/
theorem ref_eq (x0 : (⟨S4x512x512, .f32⟩ : BufTy).Contents (Elt Ideal)) (x1 : (⟨S4x100x512, .f32⟩ : BufTy).Contents (Elt Ideal))
    (x3 : (⟨S512x1025, .f32⟩ : BufTy).Contents (Elt Ideal)) (x4 : (⟨S1025, .f32⟩ : BufTy).Contents (Elt Ideal)) :
    val_main_v9 (F := Ideal) x0 x1 x3 x4 = joint x0 x1 x3 x4 := by
  funext i
  rw [val_main_v9_apply, val_main_v6_apply, val_main_v8_apply, val_main_v7_apply]
  simp only [val_main_v5_apply, val_main_v4_apply, val_main_v2_apply, val_main_v3_apply, val_main_v0_apply,
    val_main_v1_apply, idx_trans, idx_pred, idx_w, idx_bias, Ideal.addf_def, Ideal.hostUnary_tanh_def]
  rfl

end Cert.ReferenceIdeal.JointRef

end
-- ==== Proof.LibReshape.lean ====
/-
  General lemmas about re-laid arrays read at an index, for any element type: a matrix with `a·b` rows viewed as an
  `[a, b, c]` array and back (row `i·b + j` is entry `(i, j)`), a matrix given a unit middle axis, and an array
  with a unit axis repeated along that axis.
-/
import Idealize.ShloMosaic.Lib.Pipeline.Value
import Idealize.ShloMosaic.Lib.ValueIdx

namespace Cert.LibReshape

open Idealize.ShloMosaic Idealize.ShloMosaic.ValueIdx

variable {α : Type}

/-- An `[M, c]` array viewed as `[a, b, c]` reads, at `(i, j, k)`, the operand's row `i·b + j` at column `k`. -/
theorem shapeCast_Mc_abc_apply {a b c M : ℕ} (x : (⟨2, ![M, c]⟩ : Shape).Idx → α)
    (h : (⟨2, ![M, c]⟩ : Shape).ShapeCasts ⟨3, ![a, b, c]⟩) (i : Fin a) (j : Fin b) (k : Fin c) (p : Fin M)
    (hp : p.val = i.val * b + j.val) :
    shapeCast ⟨3, ![a, b, c]⟩ x h (ix3 i j k) = x (ix2 p k) :=
  shapeCast_apply x h _ _ (by
    rw [Shape.rowMajor_val_two, Shape.rowMajor_val_three]
    show p.val * c + k.val = (i.val * b + j.val) * c + k.val
    rw [hp])

/-- An `[a, b, c]` array viewed as `[M, c]` reads, at row `i·b + j` and column `k`, the operand at `(i, j, k)`. -/
theorem shapeCast_abc_Mc_apply {a b c M : ℕ} (x : (⟨3, ![a, b, c]⟩ : Shape).Idx → α)
    (h : (⟨3, ![a, b, c]⟩ : Shape).ShapeCasts ⟨2, ![M, c]⟩) (i : Fin a) (j : Fin b) (k : Fin c) (p : Fin M)
    (hp : p.val = i.val * b + j.val) :
    shapeCast ⟨2, ![M, c]⟩ x h (ix2 p k) = x (ix3 i j k) :=
  shapeCast_apply x h _ _ (by
    rw [Shape.rowMajor_val_two, Shape.rowMajor_val_three]
    show (i.val * b + j.val) * c + k.val = p.val * c + k.val
    rw [hp])

/-- An `[a, c]` array given a unit middle axis reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, 1, c]` array repeated along its middle axis reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array repeated along its leading axis reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibReshape
-- ==== Proof.JointPayload.lean ====
/-
  What one grid point's body stores, read at an index.  The body loads a `[1, 16, 512]` block of `trans`, a
  `[1, 100, 512]` block of `pred`, the whole `[512, 1025]` weight and the `[1025]` bias; it adds the two blocks
  broadcast against each other into a `[16, 100, 512]` array, applies `tanh`, flattens the first two axes into
  1600 rows, multiplies by the weight into a zero accumulator, adds the bias to every row and lays the result back
  out as `[1, 16, 100, 1025]`.  Row `r·100 + u` of the flattened matrix is entry `(r, u)`, so at `(·, r, u, v)` the
  stored value is the sum over the hidden axis of `tanh (x₀[·, r, h] + x₁[·, u, h]) · w[h, v]`, plus `bias[v]`.
-/
import proofs.«161228_j8555574854403_1_alg».proof.Proof.Gen.KernelIdeal.Skeleton
import proofs.«161228_j8555574854403_1_alg».proof.Proof.LibReshape
import Idealize.ShloMosaic.Lib.ValueLayout
import Idealize.ShloMosaic.PureOps.Ideal.Laws

noncomputable section

namespace Cert.KernelIdeal.JointPayload

open Cert.KernelIdeal Cert.KernelIdeal.Gen Idealize.ShloMosaic Idealize.ShloMosaic.ValueIdx Cert.LibReshape

local notation "D" => dot_S1600x512_S512x1025_S1600x1025_1_0_0_1_n_n

/-- The left factor's row coordinate at an output index is the output's row. -/
theorem lhs_row (i : S1600x1025.Idx) (q : (D).contr.Idx) : ((D).lhsIdx i q 0).val = (i 0).val := by
  unfold DotDims.lhsIdx
  rw [dif_neg (show ¬(0 : Fin S1600x512.rank) ∈ (D).lhsBatch by decide),
    dif_pos (show (0 : Fin S1600x512.rank) ∈ (D).lhsNonContracting by decide)]
  rfl

/-- The right factor's column coordinate at an output index is the output's column. -/
theorem rhs_col (i : S1600x1025.Idx) (q : (D).contr.Idx) : ((D).rhsIdx i q 1).val = (i 1).val := by
  unfold DotDims.rhsIdx
  rw [dif_neg (show ¬(1 : Fin S512x1025.rank) ∈ (D).rhsBatch by decide),
    dif_pos (show (1 : Fin S512x1025.rank) ∈ (D).rhsNonContracting by decide)]
  rfl

/-- The matrix product into a zero accumulator, at row `p` and column `v`: the sum over the contracted axis of the
    products of row `p` of the left factor with column `v` of the right one. -/
theorem matmul_zero_apply (l : FVec Ideal S1600x512 .bf16) (w : FVec Ideal S512x1025 .bf16) (p : Fin 1600) (v : Fin 1025) :
    matmul D none l w (constant S1600x1025 .f32 0x00000000#32) (ix2 p v)
      = ∑ k : Fin 512, l (ix2 p k) * w (ix2 k v) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : (D).lhsIdx (ix2 p v) ((contrEquiv1 D 512 rfl rfl).symm k) = ix2 p k :=
    funext fun a => Fin.ext (by
      match a with
      | ⟨0, _⟩ => exact lhs_row _ _
      | ⟨1, _⟩ => exact ((D).lhsIdx_val_of_single rfl _ _).trans hk)
  have er : (D).rhsIdx (ix2 p v) ((contrEquiv1 D 512 rfl rfl).symm k) = ix2 k v :=
    funext fun a => Fin.ext (by
      match a with
      | ⟨0, _⟩ => exact ((D).rhsIdx_val_of_single rfl _ _).trans hk
      | ⟨1, _⟩ => exact rhs_col _ _)
  rw [el, er]

/-- Row `r·100 + u` of the flattened left factor, at hidden position `h`: `tanh` of the sum of row `r` of the
    `trans` block and row `u` of the `pred` block. -/
theorem left_apply (x0 : Vec Ideal S1x16x512 .f32) (x1 : Vec Ideal S1x100x512 .f32) (r : Fin 16) (u : Fin 100) (h : Fin 512)
    (p : Fin 1600) (hp : p.val = r.val * 100 + u.val) :
    (shapeCast S1600x512
      (truncf .bf16
        (tanh (addf
          (broadcastTo S16x100x512 (shapeCast S16x1x512 (shapeCast S16x512 x0 shapeCasts_S1x16x512_S16x512) shapeCasts_S16x512_S16x1x512)
            broadcasts_S16x1x512_S16x100x512)
          (broadcastTo S16x100x512 (shapeCast S1x100x512 (shapeCast S100x512 x1 shapeCasts_S1x100x512_S100x512) shapeCasts_S100x512_S1x100x512)
            broadcasts_S1x100x512_S16x100x512)))
        bitsLt_bf16_f32)
      shapeCasts_S16x100x512_S1600x512 : FVec Ideal S1600x512 .bf16) (ix2 p h)
      = Ideal.tanh (x0 (ix3 (0 : Fin 1) r h) + x1 (ix3 (0 : Fin 1) u h)) := by
  refine (shapeCast_abc_Mc_apply _ _ r u h p hp).trans ?_
  show Ideal.tanh (_ + _) = _
  refine congrArg Ideal.tanh ?_
  refine congrArg₂ (· + ·) ?_ ?_
  · refine (broadcastTo_a1c_abc_apply _ _ r u h).trans ?_
    refine (shapeCast_ac_a1c_apply _ _ r (0 : Fin 1) h).trans ?_
    exact shapeCast_1ab_ab_apply _ _ r h
  · refine (broadcastTo_1bc_abc_apply _ _ r u h).trans ?_
    refine (shapeCast_ab_1ab_apply _ _ (0 : Fin 1) u h).trans ?_
    exact shapeCast_1ab_ab_apply _ _ u h

/-- The bias, given a unit leading axis and repeated over the 1600 rows, reads `bias[v]` in every row. -/
theorem bias_apply (x3 : Vec Ideal S1025 .f32) (p : Fin 1600) (v : Fin 1025) :
    (broadcastTo S1600x1025 (shapeCast S1x1025 x3 shapeCasts_S1025_S1x1025) broadcasts_S1x1025_S1600x1025 : FVec Ideal S1600x1025 .f32) (ix2 p v)
      = x3 (ix1 v) := by
  refine (broadcastTo_1b_ab_apply _ _ p v).trans ?_
  exact shapeCast_a_1a_apply _ _ (0 : Fin 1) v

/-- THE STORED VALUE at `(z, r, u, v)` of the output block, from the four loaded blocks. -/
theorem pay_apply (x0 : Vec Ideal S1x16x512 .f32) (x1 : Vec Ideal S1x100x512 .f32) (x2 : Vec Ideal S512x1025 .bf16) (x3 : Vec Ideal S1025 .f32)
    (z : Fin 1) (r : Fin 16) (u : Fin 100) (v : Fin 1025) :
    k0_pay1 (F := Ideal) x0 x1 x2 x3 (ix4 z r u v)
      = (∑ h : Fin 512, Ideal.tanh (x0 (ix3 (0 : Fin 1) r h) + x1 (ix3 (0 : Fin 1) u h)) * x2 (ix2 h v)) + x3 (ix1 v) := by
  have hp : (⟨r.val * 100 + u.val, by have := r.isLt; have := u.isLt; omega⟩ : Fin 1600).val = r.val * 100 + u.val := rfl
  unfold k0_pay1
  refine (shapeCast_abc_1abc_apply _ _ z r u v).trans ?_
  refine (shapeCast_Mc_abc_apply _ _ r u v ⟨r.val * 100 + u.val, by have := r.isLt; have := u.isLt; omega⟩ hp).trans ?_
  show _ + _ = _
  refine congrArg₂ (· + ·) ?_ (bias_apply x3 _ v)
  refine (matmul_zero_apply _ _ _ v).trans ?_
  refine Finset.sum_congr rfl fun h _ => ?_
  refine congrArg₂ (· * ·) (left_apply x0 x1 r u h _ hp) ?_
  exact congrFun (shapeCast_self x2 shapeCasts_S512x1025_S512x1025) (ix2 h v)

end Cert.KernelIdeal.JointPayload

end
-- ==== Proof.JointBlocks.lean ====
/-
  From the blocks to the whole output array.  The grid has 4 × 32 points; point `(b, s)` reads rows `16 s … 16 s + 15`
  of batch `b` of `trans`, all of batch `b` of `pred`, the whole weight (which the host has only re-formatted, the
  identity on extended reals) and the whole bias, and writes the `[1, 16, 100, 1025]` block `(b, s, 0, 0)` of the
  output.  Entry `(z, r, u, v)` of that block is entry `(b, 16 s + r, u, v)` of the array, and the stored value there
  is the joint function at that entry: the block's rows of `trans` and `pred` are exactly the rows the joint
  function reads.  The 128 blocks tile the array (entry `(b, t, u, v)` lies in the block of point `(b, t / 16)`),
  so after the run the output array is the joint function of the arguments.
-/
import proofs.«161228_j8555574854403_1_alg».proof.Proof.Gen.KernelIdeal.Value
import proofs.«161228_j8555574854403_1_alg».proof.Proof.JointPayload
import proofs.«161228_j8555574854403_1_alg».proof.Proof.JointSpec
import Idealize.ShloMosaic.Lib.Pipeline.Value
import Idealize.ShloMosaic.Lib.StableHlo.Run

noncomputable section

namespace Cert.KernelIdeal.JointBlocks

open Cert.KernelIdeal Cert.KernelIdeal.Gen Cert.KernelIdeal.Value Cert.KernelIdeal.JointPayload Cert.Joint
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The block indices of the five windows at a grid point, decided over the 128 points: the `trans` block moves with
    the output block on the batch and row-block axes, the `pred` block on the batch axis only, the weight and the bias
    do not move, and the output's block index is `(b, s, 0, 0)` with `b < 4`, `s < 32`. -/
theorem idx_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 4) < 4 ∧ win0_4.index t (1 : Fin 4) < 32
    ∧ win0_4.index t (2 : Fin 4) = 0 ∧ win0_4.index t (3 : Fin 4) = 0 :=
  (by decide +kernel : ∀ t : Fin grid0.N, _)

/-- Every block index `(b, s, 0, 0)` is some grid point's. -/
theorem idx_onto : ∀ (b : Fin 4) (s : Fin 32), ∃ t : Fin cfg0.N, win0_4.index t = ![b.val, s.val, 0, 0] :=
  (by decide +kernel : ∀ (b : Fin 4) (s : Fin 32), ∃ t : Fin grid0.N, win0_4.index t = ![b.val, s.val, 0, 0])

/-! ## The input blocks read off the arguments -/

/-- The `trans` block at point `t`, at a block entry, is `trans` at the array entry the block's position gives. -/
theorem trans_blk (c : Dev nD) (t : Fin cfg0.N) (y : S1x16x512.Idx) (k : S4x512x512.Idx)
    (h0 : (k 0).val = win0_0.index t (0 : Fin 3) * 1 + 1 * (y 0).val)
    (h1 : (k 1).val = win0_0.index t (1 : Fin 3) * 16 + 1 * (y 1).val)
    (h2 : (k 2).val = win0_0.index t (2 : Fin 3) * 512 + 1 * (y 2).val) :
    (iblk m c 0 t : Vec Ideal S1x16x512 .f32) y = (m ((c : Thread nD τ).loc main_arg0) : S4x512x512.Idx → Elt Ideal .f32) k := by
  unfold iblk
  rw [View.read_apply]
  show V m c main_arg0 _ = _
  rw [V_main_arg0]
  refine congrArg _ (funext fun a => Fin.ext ?_)
  match a with
  | ⟨0, _⟩ => exact h0.symm
  | ⟨1, _⟩ => exact h1.symm
  | ⟨2, _⟩ => exact h2.symm

/-- The `pred` block at point `t`, likewise. -/
theorem pred_blk (c : Dev nD) (t : Fin cfg0.N) (y : S1x100x512.Idx) (k : S4x100x512.Idx)
    (h0 : (k 0).val = win0_1.index t (0 : Fin 3) * 1 + 1 * (y 0).val)
    (h1 : (k 1).val = win0_1.index t (1 : Fin 3) * 100 + 1 * (y 1).val)
    (h2 : (k 2).val = win0_1.index t (2 : Fin 3) * 512 + 1 * (y 2).val) :
    (iblk m c 1 t : Vec Ideal S1x100x512 .f32) y = (m ((c : Thread nD τ).loc main_arg1) : S4x100x512.Idx → Elt Ideal .f32) k := by
  unfold iblk
  rw [View.read_apply]
  show V m c main_arg1 _ = _
  rw [V_main_arg1]
  refine congrArg _ (funext fun a => Fin.ext ?_)
  match a with
  | ⟨0, _⟩ => exact h0.symm
  | ⟨1, _⟩ => exact h1.symm
  | ⟨2, _⟩ => exact h2.symm

/-- The weight as the region finds it: the host's change of format, which on extended reals is the identity. -/
theorem weight_entry (c : Dev nD) (i : S512x1025.Idx) :
    (V m c main_v0 : S512x1025.Idx → Elt Ideal .bf16) i = (m ((c : Thread nD τ).loc main_arg3) : S512x1025.Idx → Elt Ideal .f32) i := by
  have e : (V m c main_v0 : S512x1025.Idx → Elt Ideal .bf16)
      = truncf (F := Ideal) .bf16 (m ((c : Thread nD τ).loc main_arg3) : S512x1025.Idx → Elt Ideal .f32) bitsLt_bf16_f32 := by
    dsimp only [Gen.V, Gen.hostOps0]; after_results
  rw [e]; rfl

/-- The weight block at point `t` is the whole weight. -/
theorem weight_blk (c : Dev nD) (t : Fin cfg0.N) (y : S512x1025.Idx) (k : S512x1025.Idx)
    (h0 : (k 0).val = win0_2.index t (0 : Fin 2) * 512 + 1 * (y 0).val)
    (h1 : (k 1).val = win0_2.index t (1 : Fin 2) * 1025 + 1 * (y 1).val) :
    (iblk m c 2 t : Vec Ideal S512x1025 .bf16) y = (m ((c : Thread nD τ).loc main_arg3) : S512x1025.Idx → Elt Ideal .f32) k := by
  unfold iblk
  rw [View.read_apply]
  show V m c main_v0 _ = _
  rw [weight_entry]
  refine congrArg _ (funext fun a => Fin.ext ?_)
  match a with
  | ⟨0, _⟩ => exact h0.symm
  | ⟨1, _⟩ => exact h1.symm

/-- The bias block at point `t` is the whole bias. -/
theorem bias_blk (c : Dev nD) (t : Fin cfg0.N) (y : S1025.Idx) (k : S1025.Idx)
    (h0 : (k 0).val = win0_3.index t (0 : Fin 1) * 1025 + 1 * (y 0).val) :
    (iblk m c 3 t : Vec Ideal S1025 .f32) y = (m ((c : Thread nD τ).loc main_arg4) : S1025.Idx → Elt Ideal .f32) k := by
  unfold iblk
  rw [View.read_apply]
  show V m c main_arg4 _ = _
  rw [V_main_arg4]
  refine congrArg _ (funext fun a => Fin.ext ?_)
  match a with
  | ⟨0, _⟩ => exact h0.symm

/-! ## What a point writes back -/

/-- The output array the run is shown to end at: the joint function of the four float arguments. -/
abbrev result (c : Dev nD) : S4x512x100x1025.Idx → Elt Ideal .f32 :=
  joint (m ((c : Thread nD τ).loc main_arg0)) (m ((c : Thread nD τ).loc main_arg1))
    (m ((c : Thread nD τ).loc main_arg3)) (m ((c : Thread nD τ).loc main_arg4))

/-- WHAT POINT `t` WRITES BACK is block `t` of the joint function of the arguments. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz4]
  simp only [View.ld_unit_zero (S := S1x16x512) hz3, View.ld_unit_zero (S := S1x100x512) hz3,
    View.ld_unit_zero (S := S512x1025) hz2, View.ld_unit_zero (S := S1025) hz1]
  obtain ⟨e00, e01, e02, e10, e11, e12, e20, e21, e30, b0, b1, e42, e43⟩ := idx_facts t
  funext j
  obtain ⟨z, r, u, v, rfl⟩ : ∃ (z : Fin 1) (r : Fin 16) (u : Fin 100) (v : Fin 1025), j = ix4 z r u v :=
    ⟨j 0, j 1, j 2, j 3, eq_ix4 j⟩
  have hz : z.val = 0 := by omega
  have hr := r.isLt
  have hu := u.isLt
  have hv := v.isLt
  show k0_pay1 (F := Ideal) (iblk m c 0 t) (iblk m c 1 t) (iblk m c 2 t) (iblk m c 3 t) (ix4 z r u v)
    = result m c (((cfg0.win 4).blk t).view.emb (ix4 z r u v))
  refine (pay_apply (iblk m c 0 t) (iblk m c 1 t) (iblk m c 2 t) (iblk m c 3 t) z r u v).trans ?_
  have p0 : ((((cfg0.win 4).blk t).view.emb (ix4 z r u v)) 0).val = win0_4.index t (0 : Fin 4) * 1 + 1 * z.val := rfl
  have p1 : ((((cfg0.win 4).blk t).view.emb (ix4 z r u v)) 1).val = win0_4.index t (1 : Fin 4) * 16 + 1 * r.val := rfl
  have p2 : ((((cfg0.win 4).blk t).view.emb (ix4 z r u v)) 2).val = win0_4.index t (2 : Fin 4) * 100 + 1 * u.val := rfl
  have p3 : ((((cfg0.win 4).blk t).view.emb (ix4 z r u v)) 3).val = win0_4.index t (3 : Fin 4) * 1025 + 1 * v.val := rfl
  generalize ((cfg0.win 4).blk t).view.emb (ix4 z r u v) = i at p0 p1 p2 p3
  show _ = (∑ h : Fin 512, Ideal.tanh (_ + _) * _) + _
  refine congrArg₂ (· + ·) (Finset.sum_congr rfl fun h _ => congrArg₂ (· * ·) (congrArg Ideal.tanh (congrArg₂ (· + ·) ?_ ?_)) ?_) ?_
  · refine trans_blk m c t _ _ ?_ ?_ ?_
    · show (i 0).val = win0_0.index t (0 : Fin 3) * 1 + 1 * 0; omega
    · show (i 1).val = win0_0.index t (1 : Fin 3) * 16 + 1 * r.val; omega
    · show h.val = win0_0.index t (2 : Fin 3) * 512 + 1 * h.val; omega
  · refine pred_blk m c t _ _ ?_ ?_ ?_
    · show (i 0).val = win0_1.index t (0 : Fin 3) * 1 + 1 * 0; omega
    · show (i 2).val = win0_1.index t (1 : Fin 3) * 100 + 1 * u.val; omega
    · show h.val = win0_1.index t (2 : Fin 3) * 512 + 1 * h.val; omega
  · refine weight_blk m c t _ _ ?_ ?_
    · show h.val = win0_2.index t (0 : Fin 2) * 512 + 1 * h.val; omega
    · show (i 3).val = win0_2.index t (1 : Fin 2) * 1025 + 1 * v.val; omega
  · refine bias_blk m c t _ _ ?_
    show (i 3).val = win0_3.index t (0 : Fin 1) * 1025 + 1 * v.val; omega

/-! ## The blocks tile the array -/

/-- An array entry is in point `t`'s block iff each coordinate is in the block's range on its axis. -/
theorem mem_blk (t : Fin cfg0.N) (i : S4x512x100x1025.Idx) :
    i ∈ ((cfg0.win 4).blk t).view.set ↔ ∀ a : Fin 4, win0_4.index t a * S1x16x100x1025.size a ≤ (i a).val
      ∧ (i a).val < win0_4.index t a * S1x16x100x1025.size a + S1x16x100x1025.size a := by
  show i ∈ ((View.whole main_v1).slice (win0_4.rect t)).set ↔ _
  rw [View.set_slice_whole, Rect.mem_set_unit]
  exact Iff.rfl

/-- Every entry `(b, t, u, v)` of the output lies in the block of the point with block index `(b, t / 16, 0, 0)`. -/
theorem cover (i : S4x512x100x1025.Idx) :
    ∃ t : Fin cfg0.N, (cfg0.win 4).flush t = true ∧ i ∈ ((cfg0.win 4).blk t).view.set := by
  have hi0 : (i 0).val < 4 := (i 0).isLt
  have hi1 : (i 1).val < 512 := (i 1).isLt
  have hi2 : (i 2).val < 100 := (i 2).isLt
  have hi3 : (i 3).val < 1025 := (i 3).isLt
  obtain ⟨t, ht⟩ := idx_onto ⟨(i 0).val, hi0⟩ ⟨(i 1).val / 16, by omega⟩
  have q0 : win0_4.index t (0 : Fin 4) = (i 0).val := congrFun ht 0
  have q1 : win0_4.index t (1 : Fin 4) = (i 1).val / 16 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 100 ≤ (i 2).val ∧ (i 2).val < win0_4.index t (2 : Fin 4) * 100 + 100; omega
  | ⟨3, _⟩ => show win0_4.index t (3 : Fin 4) * 1025 ≤ (i 3).val ∧ (i 3).val < win0_4.index t (3 : Fin 4) * 1025 + 1025; omega

/-- THE OUTPUT ARRAY after the run is the joint function of the arguments. -/
theorem final (c : Dev nD) : (dats m 0 c).arrAt 4 cfg0.N = result m c :=
  (dats m 0 c).arrAt_eq_of_cover 4 (result m c) (fun t _ => flushed_eq m c t) cover

/-- The kernel's run, read: the output array at the joint function of the arguments, every argument unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.JointBlocks

end
-- ==== Proof.lean ====
/-
  The kernel computes, block by block over a 4 × 32 grid, the joint network

      out[b, t, u, v] = (∑ h, tanh (trans[b, t, h] + pred[b, u, h]) · W[h, v]) + bias[v],

  and returns `seq_len` untouched; the reference computes the same array by broadcasting, one contraction and one
  addition.  On the extended reals a change of float format is the identity, the matrix product into a zero
  accumulator and the host's contraction are the same sum over the hidden axis in the same order, and the two `tanh`
  are one function, so both programs end at the joint function of the arguments (Proof/JointSpec.lean): the reference by
  reading its operations at an index (Proof/JointRef.lean), the kernel by reading what a grid point stores
  (Proof/JointPayload.lean) and tiling the array with the points' blocks (Proof/JointBlocks.lean).  No finiteness of
  the inputs is needed: the two sides are the same expression term for term.
-/
import proofs.«161228_j8555574854403_1_alg».proof.Defs
import proofs.«161228_j8555574854403_1_alg».proof.Proof.Gen.Kernel
import proofs.«161228_j8555574854403_1_alg».proof.Proof.Gen.Kernel.Skeleton
import proofs.«161228_j8555574854403_1_alg».proof.Proof.Gen.Kernel.Launch
import proofs.«161228_j8555574854403_1_alg».proof.Proof.Gen.Kernel.Points
import proofs.«161228_j8555574854403_1_alg».proof.Proof.Gen.Kernel.Frame
import proofs.«161228_j8555574854403_1_alg».proof.Proof.Gen.KernelIdeal
import proofs.«161228_j8555574854403_1_alg».proof.Proof.Gen.KernelIdeal.Skeleton
import proofs.«161228_j8555574854403_1_alg».proof.Proof.Gen.KernelIdeal.Launch
import proofs.«161228_j8555574854403_1_alg».proof.Proof.Gen.KernelIdeal.Points
import proofs.«161228_j8555574854403_1_alg».proof.Proof.Gen.KernelIdeal.Frame
import proofs.«161228_j8555574854403_1_alg».proof.Proof.Gen.ReferenceIdeal
import proofs.«161228_j8555574854403_1_alg».proof.Proof.Gen.Pre_finite_inputs
import proofs.«161228_j8555574854403_1_alg».proof.Proof.Gen.KernelIdeal.Value
import proofs.«161228_j8555574854403_1_alg».proof.Proof.Gen.ReferenceIdeal.Run
import proofs.«161228_j8555574854403_1_alg».proof.Proof.Gen.ReferenceIdeal.Read
import proofs.«161228_j8555574854403_1_alg».proof.Proof.JointRef
import proofs.«161228_j8555574854403_1_alg».proof.Proof.JointBlocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run with the result forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs, from memories that agree on the arguments, end with the output at the joint function of the
    arguments and with `seq_len` as given. -/
theorem algebraic : Cert.algebraic_KernelIdeal_ReferenceIdeal := by
  intro m ρ m' ρ' _ hagree
  refine ⟨fun c => Cert.KernelIdeal.JointBlocks.result m c,
    fun c => m ((c.tc : Thread Cert.KernelIdeal.nD Cert.KernelIdeal.τ).loc Cert.KernelIdeal.main_arg2), ?_, ?_⟩
  · refine (θ_run Cert.KernelIdeal.defs _ _).mono (fun r h c => ?_) (Cert.KernelIdeal.JointBlocks.run m ρ)
    obtain ⟨h1, h2, h3, h4, h5, h6⟩ := h c
    exact ⟨h1, h4, h2, h3, h4, h5, h6⟩
  · refine (θ_run Cert.ReferenceIdeal.defs _ _).mono (fun r h c => ?_) (Cert.ReferenceIdeal.Value.run (F := Ideal) m' ρ')
    obtain ⟨h1, h2, h3⟩ := h c
    obtain ⟨a0, a1, a2, a3, a4⟩ := hagree c
    refine ⟨?_, h2.trans a2, h3⟩
    rw [h1, Cert.ReferenceIdeal.Read.val_main_v9_eq, Cert.ReferenceIdeal.JointRef.ref_eq, a0, a1, a3, a4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
